-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x32x128 : Shape := ⟨3, ![50000, 32, 128]⟩
abbrev S50000x32x32 : Shape := ⟨3, ![50000, 32, 32]⟩
abbrev S128x128 : Shape := ⟨2, ![128, 128]⟩
abbrev S128 : Shape := ⟨1, ![128]⟩
abbrev S32x128 : Shape := ⟨2, ![32, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x32x128 : S_.BroadcastsInDim S50000x32x128 (![] : Fin 0 → Fin S50000x32x128.rank)
  reducesTo_S50000x32x128_S_d0_1_2 : S50000x32x128.ReducesTo [0, 1, 2] S_
  bcast_S_S50000x32x32 : S_.BroadcastsInDim S50000x32x32 (![] : Fin 0 → Fin S50000x32x32.rank)
  reducesTo_S50000x32x32_S_d0_1_2 : S50000x32x32.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_

variable [Facts]

def fn_part1 {F : FTy → Type} [FloatOps F] (main_arg4 : FVec F S128 .f32) (main_arg5 : FVec F S32x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32x128 .f32 := Host.absf main_arg5
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  main_v28

def fn {F : FTy → Type} [FloatOps F] (main_arg0 : FVec F S50000x128 .f32) (main_arg1 : FVec F S50000x32x128 .f32) (main_arg2 : FVec F S50000x32x32 .f32) (main_arg3 : FVec F S128x128 .f32) (main_arg4 : FVec F S128 .f32) (main_arg5 : FVec F S32x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x32x128 .f32 := Host.absf main_arg1
  let main_cst_0 : FVec F S_ .f32 := constant S_ .f32 0x7F800000#32
  let main_v5 : FVec F S50000x32x128 .f32 := broadcastInDim S50000x32x128 ![] bcast_S_S50000x32x128 main_cst_0
  let main_v6 : IVec S50000x32x128 1 := cmpf .olt main_v4 main_v5
  let main_c_1 : IVec S_ 1 := constantI S_ 1 1#1
  let main_v7 : IVec S_ 1 := (fun x v => Host.reduce IntOp.andi x v reducesTo_S50000x32x128_S_d0_1_2 h_S_) main_v6 main_c_1
  let main_v8 : IVec S_ 1 := andi main_v3 main_v7
  let main_v9 : FVec F S50000x32x32 .f32 := Host.absf main_arg2
  let main_cst_2 : FVec F S_ .f32 := constant S_ .f32 0x7F800000#32
  let main_v10 : FVec F S50000x32x32 .f32 := broadcastInDim S50000x32x32 ![] bcast_S_S50000x32x32 main_cst_2
  let main_v11 : IVec S50000x32x32 1 := cmpf .olt main_v9 main_v10
  let main_c_3 : IVec S_ 1 := constantI S_ 1 1#1
  let main_v12 : IVec S_ 1 := (fun x v => Host.reduce IntOp.andi x v reducesTo_S50000x32x32_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x128 : Shape := ⟨2, ![50000, 128]⟩
abbrev S50000x32x128 : Shape := ⟨3, ![50000, 32, 128]⟩
abbrev S50000x32x32 : Shape := ⟨3, ![50000, 32, 32]⟩
abbrev S128x128 : Shape := ⟨2, ![128, 128]⟩
abbrev S128 : Shape := ⟨1, ![128]⟩
abbrev S32x128 : Shape := ⟨2, ![32, 128]⟩
abbrev S1x128 : Shape := ⟨2, ![1, 128]⟩
abbrev S1000x128 : Shape := ⟨2, ![1000, 128]⟩
abbrev S1000x32x128 : Shape := ⟨3, ![1000, 32, 128]⟩
abbrev S1000x32x32 : Shape := ⟨3, ![1000, 32, 32]⟩
abbrev S1000x8x32 : Shape := ⟨3, ![1000, 8, 32]⟩
abbrev S8000x32 : Shape := ⟨2, ![8000, 32]⟩
abbrev S8000x128 : Shape := ⟨2, ![8000, 128]⟩
abbrev S1000x8x128 : Shape := ⟨3, ![1000, 8, 128]⟩

abbrev nBuf : Space → Nat
  | .hbm => 8
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S50000x32x32, .f32⟩
  | .hbm, ⟨3, _⟩ => ⟨S128x128, .f32⟩
  | .hbm, ⟨4, _⟩ => ⟨S128, .f32⟩
  | .hbm, ⟨5, _⟩ => ⟨S32x128, .f32⟩
  | .hbm, ⟨6, _⟩ => ⟨S1x128, .f32⟩
  | .hbm, ⟨7, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x32x128, .f32⟩
  | .local _ .vmem, ⟨3, _⟩ => ⟨S1000x32x128, .f32⟩
  | .local _ .vmem, ⟨4, _⟩ => ⟨S1000x32x32, .f32⟩
  | .local _ .vmem, ⟨5, _⟩ => ⟨S1000x32x32, .f32⟩
  | .local _ .vmem, ⟨6, _⟩ => ⟨S128x128, .f32⟩
  | .local _ .vmem, ⟨7, _⟩ => ⟨S1x128, .f32⟩
  | .local _ .vmem, ⟨8, _⟩ => ⟨S32x128, .f32⟩
  | .local _ .vmem, ⟨9, _⟩ => ⟨S1000x128, .f32⟩
  | .local _ .vmem, ⟨10, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x32x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S1000x32x32_S1000x8x32_0_0_0 : ∀ a, (![0, 0, 0] : Fin 3 → Nat) a + S1000x8x32.size a ≤ S1000x32x32.size a
  h_S1000x8x32 : 0 < S1000x8x32.numel
  shapeCasts_S1000x8x32_S8000x32 : S1000x8x32.ShapeCasts S8000x32
  inb_S32x128_S32x128_0_0 : ∀ a, (![0, 0] : Fin 2 → Nat) a + S32x128.size a ≤ S32x128.size a
  h_S32x128 : 0 < S32x128.numel
  shapeCasts_S8000x128_S1000x8x128 : S8000x128.ShapeCasts S1000x8x128
  inb_S1000x32x128_S1000x8x128_0_0_0 : ∀ a, (![0, 0, 0] : Fin 3 → Nat) a + S1000x8x128.size a ≤ S1000x32x128.size a
  h_S1000x8x128 : 0 < S1000x8x128.numel
  reduces_S1000x8x128_S1000x128 : S1000x8x128.Reduces [1] S1000x128
  inb_S1000x32x32_S1000x8x32_0_8_0 : ∀ a, (![0, 8, 0] : Fin 3 → Nat) a + S1000x8x32.size a ≤ S1000x32x32.size a
  inb_S1000x32x128_S1000x8x128_0_8_0 : ∀ a, (![0, 8, 0] : Fin 3 → Nat) a + S1000x8x128.size a ≤ S1000x32x128.size a
  inb_S1000x32x32_S1000x8x32_0_16_0 : ∀ a, (![0, 16, 0] : Fin 3 → Nat) a + S1000x8x32.size a ≤ S1000x32x32.size a
  inb_S1000x32x128_S1000x8x128_0_16_0 : ∀ a, (![0, 16, 0] : Fin 3 → Nat) a + S1000x8x128.size a ≤ S1000x32x128.size a
  inb_S1000x32x32_S1000x8x32_0_24_0 : ∀ a, (![0, 24, 0] : Fin 3 → Nat) a + S1000x8x32.size a ≤ S1000x32x32.size a
  inb_S1000x32x128_S1000x8x128_0_24_0 : ∀ a, (![0, 24, 0] : Fin 3 → Nat) a + S1000x8x128.size a ≤ S1000x32x128.size a
  dot_S1000x128_S128x128_S1000x128_1_0_0_1_n_n_wf : DotDims.WF S1000x128 S128x128 S1000x128 [1] [0] [0] [1] [] []
  dot_S8000x32_S32x128_S8000x128_1_0_0_1_n_n_wf : DotDims.WF S8000x32 S32x128 S8000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x32x128.size a ≤ S50000x32x128.size a
  hwx0_1 : ∀ i : grid0.Coords, EltTy.bits .f32 = 32 ∨ (Rect.block (s := S50000x32x128) S1000x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x32x32.size a ≤ S50000x32x32.size a
  hwx0_2 : ∀ i : grid0.Coords, EltTy.bits .f32 = 32 ∨ (Rect.block (s := S50000x32x32) S1000x32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1000x128.size a ≤ S50000x128.size a
  hwx0_6 : ∀ i : grid0.Coords, EltTy.bits .f32 = 32 ∨ (Rect.block (s := S50000x128) S1000x128.size (cc0_transform_6 i) (hinb0_6 i)).WholeWords (EltTy.packing .f32)

variable [Facts₀]

def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x32x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x32x128 : Shape := ⟨3, ![50000, 32, 128]⟩
abbrev S50000x32x32 : Shape := ⟨3, ![50000, 32, 32]⟩
abbrev S128x128 : Shape := ⟨2, ![128, 128]⟩
abbrev S128 : Shape := ⟨1, ![128]⟩
abbrev S32x128 : Shape := ⟨2, ![32, 128]⟩
abbrev S1x128 : Shape := ⟨2, ![1, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x32x128, .f32⟩
  | .hbm, ⟨2, _⟩ => ⟨S50000x32x32, .f32⟩
  | .hbm, ⟨3, _⟩ => ⟨S128x128, .f32⟩
  | .hbm, ⟨4, _⟩ => ⟨S128, .f32⟩
  | .hbm, ⟨5, _⟩ => ⟨S32x128, .f32⟩
  | .hbm, ⟨6, _⟩ => ⟨S50000x128, .f32⟩
  | .hbm, ⟨7, _⟩ => ⟨S1x128, .f32⟩
  | .hbm, ⟨8, _⟩ => ⟨S50000x128, .f32⟩
  | .hbm, ⟨9, _⟩ => ⟨S50000x128, .f32⟩
  | .hbm, ⟨10, _⟩ => ⟨S50000x32x128, .f32⟩
  | .hbm, ⟨11, _⟩ => ⟨S50000x32x128, .f32⟩
  | .hbm, ⟨12, _⟩ => ⟨S_, .f32⟩
  | .hbm, ⟨13, _⟩ => ⟨S50000x128, .f32⟩
  | .hbm, ⟨14, _⟩ => ⟨S50000x128, .f32⟩
  | .hbm, ⟨15, _⟩ => ⟨S50000x128, .f32⟩
  | .hbm, ⟨16, _⟩ => ⟨S50000x128, .f32⟩
  | .hbm, ⟨17, _⟩ => ⟨S_, .f32⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v8 : Ref sig .tc := ⟨.hbm, 23, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x32x128_S50000x128_d1 : S50000x32x128.ReducesTo [1] S50000x128
  h_S_ : 0 < S_.numel
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  dot_S50000x32x32_S32x128_S50000x32x128_2_0_01_1_n_n_wf : DotDims.WF S50000x32x32 S32x128 S50000x32x128 [2] [0] [0, 1] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x32x32_S32x128_S50000x32x128_2_0_01_1_n_n : DotDims S50000x32x32 S32x128 S50000x32x128 where
  lhsContracting := [2]
  rhsContracting := [0]
  lhsNonContracting := [0, 1]
  rhsNonContracting := [1]
  lhsBatch := []
  rhsBatch := []
  wf := dot_S50000x32x32_S32x128_S50000x32x128_2_0_01_1_n_n_wf

class Facts : Prop extends Facts₀ where

variable [Facts]
-- ==== Proof.LibLayout.lean ====
/-
  Layout operations read at an entry, for the shapes a row-normalising kernel meets.

  A vector `[a]` re-laid as a column `[a, 1]`; a column `[a, 1]` broadcast along the rows of `[a, b]`; the sum of an `[n, m]` array
  along each row; and the two re-layings between a stack `[a, b, c]` and the table `[a·b, c]` of its rows (row `R` of the table is
  row `R % b` of member `R / b`: both orders are row-major).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Layout

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[n, m]` array along each row, read at row `r`. -/
theorem rowsum_apply {n m : Nat} (src : FVec Ideal ⟨2, ![n, m]⟩ .f32) (h : Shape.Reduces ⟨2, ![n, m]⟩ [1] ⟨1, ![n]⟩)
    (hφ : FKind.Formats .f32) (hacc : (0x00000000#32 : BitVec (FTy.f32).bits) = FKind.add.neutral .f32 hφ) (r : Fin n) :
    multiReduction .add [1] ⟨1, ![n]⟩ src 0x00000000#32 h hφ hacc (ix1 r) = ∑ c : Fin m, src (ix2 r c) := by
  refine (Ideal.multiReduction_add_single src _ h hφ hacc (ix1 r)).trans ?_
  refine Finset.sum_congr rfl fun c _ => congrArg src ?_
  funext ax
  apply Fin.ext
  match ax with
  | ⟨0, _⟩ => rfl
  | ⟨1, _⟩ => rfl

/-- A stack `[a, b, c]` re-laid as the table `[n, c]` of its rows (`n = a · b`) reads, at `(R, j)`, member `R / b`, row `R % b`. -/
theorem shapeCast_abc_nc_apply {a b c n : ℕ} (x : (⟨3, ![a, b, c]⟩ : Shape).Idx → α)
    (h : (⟨3, ![a, b, c]⟩ : Shape).ShapeCasts ⟨2, ![n, c]⟩) (R : Fin n) (j : Fin c) (p : Fin a) (q : Fin b)
    (hR : R.val = p.val * b + q.val) : shapeCast ⟨2, ![n, c]⟩ x h (ix2 R j) = x (ix3 p q j) :=
  shapeCast_apply x h _ _ (by
    rw [Shape.rowMajor_val_three, Shape.rowMajor_val_two]
    show (p.val * b + q.val) * c + j.val = R.val * c + j.val
    rw [hR])

/-- The table `[n, c]` re-laid as the stack `[a, b, c]` reads, at `(p, q, j)`, row `p · b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (j : Fin c) (R : Fin n)
    (hR : R.val = p.val * b + q.val) : shapeCast ⟨3, ![a, b, c]⟩ x h (ix3 p q j) = x (ix2 R j) :=
  shapeCast_apply x h _ _ (by
    rw [Shape.rowMajor_val_three, Shape.rowMajor_val_two]
    show R.val * c + j.val = (p.val * b + q.val) * c + j.val
    rw [hR])

end Cert.Layout

end
-- ==== Proof.LibSums.lean ====
/-
  Sums along rows, and a long sum cut into consecutive blocks.

  `colsum_apply`: a kernel's sum of an `[n, m]` array over its rows (a `vector.multi_reduction <add>` over axis 0 into the neutral
  accumulator), read at column `j` on the extended reals, is `∑ r, x (r, j)`.
  `sum_blocks`: a sum over `a · b` consecutive naturals is the sum over `a` blocks of the sums over the `b` members of each;
  addition on the extended reals is commutative and associative (also at the infinities), so no finiteness is asked.
-/
import Idealize.ShloMosaic.PureOps.Ideal.Laws
import Idealize.ShloMosaic.Lib.ValueIdx

noncomputable section

namespace Cert.Sums

open Idealize.ShloMosaic Idealize.ShloMosaic.ValueIdx

/-- The row sum of an `[n, m]` array, read at column `j`. -/
theorem colsum_apply {n m : Nat} (src : FVec Ideal ⟨2, ![n, m]⟩ .f32) (h : Shape.Reduces ⟨2, ![n, m]⟩ [0] ⟨1, ![m]⟩)
    (hφ : FKind.Formats .f32) (hacc : (0x00000000#32 : BitVec (FTy.f32).bits) = FKind.add.neutral .f32 hφ) (j : Fin m) :
    multiReduction .add [0] ⟨1, ![m]⟩ src 0x00000000#32 h hφ hacc (ix1 j) = ∑ r : Fin n, src (ix2 r j) := by
  refine (Ideal.multiReduction_add_single src _ h hφ hacc (ix1 j)).trans ?_
  refine Finset.sum_congr rfl fun r _ => congrArg src ?_
  funext c
  apply Fin.ext
  match c with
  | ⟨0, _⟩ => rfl
  | ⟨1, _⟩ => rfl

/-- A sum over the first `a · b` naturals, block by block. -/
theorem sum_range_blocks {M : Type*} [AddCommMonoid M] (f : ℕ → M) (b : ℕ) :
    ∀ a : ℕ, ∑ R ∈ Finset.range (a * b), f R = ∑ s ∈ Finset.range a, ∑ r ∈ Finset.range b, f (b * s + r)
  | 0 => by simp
  | a + 1 => by
    rw [Nat.succ_mul, Finset.sum_range_add, sum_range_blocks f b a, Finset.sum_range_succ, Nat.mul_comm a b]

/-- The same with the long sum and the inner sums over `Fin`. -/
theorem sum_blocks {M : Type*} [AddCommMonoid M] (f : ℕ → M) (a b : ℕ) :
    ∑ R : Fin (a * b), f R.val = ∑ s ∈ Finset.range a, ∑ r : Fin b, f (b * s + r.val) := by
  rw [← Finset.sum_range f, sum_range_blocks f b a]
  exact Finset.sum_congr rfl fun s _ => Finset.sum_range fun r => f (b * s + r)

end Cert.Sums

end
-- ==== Proof.NodeUpdate.lean ====
/-
  One node's update in a continuous-filter message-passing layer, read at one output channel, on the extended reals.

  A node has a centre feature vector (128 entries) and 32 neighbours; neighbour `k` carries a feature vector (128 entries) and a
  difference vector (32 entries). At output channel `o` the layer computes

      pre  =  (∑_d centre[d] · W_i[d, o]  +  b[o])  +  (0 + ∑_k (∑_f diff[k, f] · W_γ[f, o]) · neigh[k, o])
      out  =  pre · σ(pre),      σ(x) = 1 / (1 + e^(-x)).

  The sum over the 32 neighbours may be taken in four chunks of eight consecutive neighbours, each chunk summed by itself and the
  four added one after the other onto zero: addition of extended reals is commutative and associative, also at the infinities, and
  zero is neutral, so the two ways of summing agree with no condition on the entries (`preChunked_eq`).
-/
import Idealize.ShloMosaic.PureOps.Ideal.Laws
import Idealize.ShloMosaic.Lib.ValueIdx
import proofs.«118850_j28080496181525_2_alg».proof.Proof.LibSums

noncomputable section

namespace Cert.NodeUpdate

open Idealize.ShloMosaic Idealize.ShloMosaic.ValueIdx

/-- `x · σ(x)`, `σ` the logistic function; at the infinities by the conventions of the quotient and of the exponential. -/
def silu (x : EReal) : EReal := x * Ideal.logistic x

/-- Neighbour `k`'s message at the channel: its filter value `∑_f diff[k, f] · W_γ[f]` times its feature there. -/
def msg (df : Fin 32 → Fin 32 → EReal) (wg nb : Fin 32 → EReal) (k : Fin 32) : EReal :=
  (∑ f : Fin 32, df k f * wg f) * nb k

/-- The value before the activation: the centre's projection plus the bias, plus the 32 messages summed onto zero. -/
def pre (ctr wi : Fin 128 → EReal) (b : EReal) (df : Fin 32 → Fin 32 → EReal) (wg nb : Fin 32 → EReal) : EReal :=
  (∑ d : Fin 128, ctr d * wi d + b) + (0 + ∑ k : Fin 32, msg df wg nb k)

/-- Member `j` of chunk `s`: the 32 neighbours cut into four runs of eight consecutive ones. -/
def chunk (s : Fin 4) (j : Fin 8) : Fin 32 := ⟨8 * s.val + j.val, by omega⟩

/-- The same value with the messages summed chunk by chunk, the chunks added one after the other onto zero. -/
def preChunked (ctr wi : Fin 128 → EReal) (b : EReal) (df : Fin 32 → Fin 32 → EReal) (wg nb : Fin 32 → EReal) : EReal :=
  (∑ d : Fin 128, ctr d * wi d + b)
    + ((((0 + ∑ j : Fin 8, msg df wg nb (chunk 0 j)) + ∑ j : Fin 8, msg df wg nb (chunk 1 j))
        + ∑ j : Fin 8, msg df wg nb (chunk 2 j)) + ∑ j : Fin 8, msg df wg nb (chunk 3 j))

/-- A sum over 32 terms is the sum of its four chunks of eight, in any commutative monoid. -/
theorem sum_chunks {M : Type*} [AddCommMonoid M] (g : Fin 32 → M) :
    ∑ k : Fin 32, g k
      = (((∑ j : Fin 8, g (chunk 0 j)) + ∑ j : Fin 8, g (chunk 1 j)) + ∑ j : Fin 8, g (chunk 2 j)) + ∑ j : Fin 8, g (chunk 3 j) := by
  -- `g` continued to all naturals, periodically
  let f : ℕ → M := fun R => g ⟨R % 32, Nat.mod_lt R (by decide)⟩
  have key : ∀ s : Fin 4, ∑ r : Fin 8, f (8 * s.val + r.val) = ∑ j : Fin 8, g (chunk s j) := fun s =>
    Finset.sum_congr rfl fun r _ => congrArg g (Fin.ext (by
      show (8 * s.val + r.val) % 32 = 8 * s.val + r.val
      exact Nat.mod_eq_of_lt (by omega)))
  have whole : ∑ k : Fin 32, g k = ∑ R : Fin (4 * 8), f R.val :=
    Finset.sum_congr rfl fun R _ => congrArg g (Fin.ext (Nat.mod_eq_of_lt R.isLt).symm)
  rw [whole, Cert.Sums.sum_blocks f 4 8, Finset.sum_range_succ, Finset.sum_range_succ, Finset.sum_range_succ,
    Finset.sum_range_succ, Finset.sum_range_zero, zero_add, ← key 0, ← key 1, ← key 2, ← key 3]
  rfl

/-- Summing the messages chunk by chunk gives the same value as summing them at once. -/
theorem preChunked_eq (ctr wi : Fin 128 → EReal) (b : EReal) (df : Fin 32 → Fin 32 → EReal) (wg nb : Fin 32 → EReal) :
    preChunked ctr wi b df wg nb = pre ctr wi b df wg nb := by
  unfold preChunked pre
  rw [sum_chunks (msg df wg nb), zero_add, zero_add]

/-! ## The layer on whole arrays -/

/-- The layer's output at node `n`, channel `o`, from the six argument arrays. -/
def outAt (hc : (⟨2, ![50000, 128]⟩ : Shape).Idx → EReal) (hn : (⟨3, ![50000, 32, 128]⟩ : Shape).Idx → EReal)
    (df : (⟨3, ![50000, 32, 32]⟩ : Shape).Idx → EReal) (wi : (⟨2, ![128, 128]⟩ : Shape).Idx → EReal)
    (b : (⟨1, ![128]⟩ : Shape).Idx → EReal) (wg : (⟨2, ![32, 128]⟩ : Shape).Idx → EReal) (n : Fin 50000) (o : Fin 128) : EReal :=
  silu (pre (fun d => hc (ix2 n d)) (fun d => wi (ix2 d o)) (b (ix1 o)) (fun k f => df (ix3 n k f)) (fun f => wg (ix2 f o))
    (fun k => hn (ix3 n k o)))

/-- The layer's output array. -/
def out (hc : (⟨2, ![50000, 128]⟩ : Shape).Idx → EReal) (hn : (⟨3, ![50000, 32, 128]⟩ : Shape).Idx → EReal)
    (df : (⟨3, ![50000, 32, 32]⟩ : Shape).Idx → EReal) (wi : (⟨2, ![128, 128]⟩ : Shape).Idx → EReal)
    (b : (⟨1, ![128]⟩ : Shape).Idx → EReal) (wg : (⟨2, ![32, 128]⟩ : Shape).Idx → EReal) :
    (⟨2, ![50000, 128]⟩ : Shape).Idx → EReal :=
  fun i => outAt hc hn df wi b wg (i 0) (i 1)

end Cert.NodeUpdate

end
-- ==== Proof.KernelOps.lean ====
/-
  The operations of the kernel's body, read at one entry, on the extended reals.

  The body works on a block of 1000 nodes. It holds: the centre features `[1000, 128]`, the neighbours' features `[1000, 32, 128]`,
  the difference vectors `[1000, 32, 32]`, and the whole parameters `W_i [128, 128]`, the bias row `[1, 128]`, `W_γ [32, 128]`.
  For each chunk of eight neighbours it cuts `[1000, 8, ·]` slabs out of the two rank-3 blocks, re-lays the difference slab as a
  table `[8000, 32]` (row `8p + j` is neighbour `j` of node `p`), multiplies the table by `W_γ`, re-lays the product as
  `[1000, 8, 128]`, multiplies entrywise by the feature slab and sums over the eight neighbours.

  Read at node `p` and channel `o`, that chunk is `∑_j (∑_f diff[p, 8s + j, f] · W_γ[f, o]) · neigh[p, 8s + j, o]`
  (`chunk_block`): a slab's entry `(p, j, ·)` is the block's entry `(p, off + j, ·)`; both re-layings are row-major, so they
  pair table row `8p + j` with slab entry `(p, j)`; a matrix product into a zero accumulator is the plain sum of products over
  the contracted index; and the sum over the middle axis is the sum over `j`.
-/
import proofs.«118850_j28080496181525_2_alg».proof.Proof.Gen.KernelIdeal
import proofs.«118850_j28080496181525_2_alg».proof.Proof.LibLayout
import proofs.«118850_j28080496181525_2_alg».proof.Proof.NodeUpdate
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws

noncomputable section

namespace Cert.KernelIdeal.BlockOps

open Cert.KernelIdeal Cert.KernelIdeal.Gen Idealize.ShloMosaic Idealize.ShloMosaic.ValueIdx

/-! ## The two matrix products

Each has one contracted axis; at output entry `(r, o)` and contraction coordinate `k` the left operand is read at `(r, k)` and the
right one at `(k, o)`. -/

theorem centre_lhs0 (i : S1000x128.Idx) (q : dot_S1000x128_S128x128_S1000x128_1_0_0_1_n_n.contr.Idx) : (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl
theorem centre_lhs1 (i : S1000x128.Idx) (q : dot_S1000x128_S128x128_S1000x128_1_0_0_1_n_n.contr.Idx) : (dot_S1000x128_S128x128_S1000x128_1_0_0_1_n_n.lhsIdx i q 1).val = (q ⟨0, by decide⟩).val :=
  dot_S1000x128_S128x128_S1000x128_1_0_0_1_n_n.lhsIdx_val_of_single rfl i q
theorem centre_rhs0 (i : S1000x128.Idx) (q : dot_S1000x128_S128x128_S1000x128_1_0_0_1_n_n.contr.Idx) : (dot_S1000x128_S128x128_S1000x128_1_0_0_1_n_n.rhsIdx i q 0).val = (q ⟨0, by decide⟩).val :=
  dot_S1000x128_S128x128_S1000x128_1_0_0_1_n_n.rhsIdx_val_of_single rfl i q
theorem centre_rhs1 (i : S1000x128.Idx) (q : dot_S1000x128_S128x128_S1000x128_1_0_0_1_n_n.contr.Idx) : (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- The centre projection `[1000, 128] · [128, 128]` into a zero accumulator, at `(p, o)`: the sum over the 128 input channels. -/
theorem matmul_centre (a : FVec Ideal S1000x128 .f32) (w : FVec Ideal S128x128 .f32) (p : Fin 1000) (o : Fin 128) :
    matmul dot_S1000x128_S128x128_S1000x128_1_0_0_1_n_n none a w (constant S1000x128 .f32 0x00000000#32) (ix2 p o)
      = ∑ d : Fin 128, a (ix2 p d) * w (ix2 d o) := by
  refine (Ideal.matmul_constant_zero_apply dot_S1000x128_S128x128_S1000x128_1_0_0_1_n_n none a w (ix2 p o)).trans ?_
  rw [← Equiv.sum_comp (ValueIdx.contrEquiv1 dot_S1000x128_S128x128_S1000x128_1_0_0_1_n_n 128 rfl rfl).symm]
  refine Finset.sum_congr rfl fun k _ => ?_
  have hk := ValueIdx.contrEquiv1_symm_val dot_S1000x128_S128x128_S1000x128_1_0_0_1_n_n 128 rfl rfl k
  have el : dot_S1000x128_S128x128_S1000x128_1_0_0_1_n_n.lhsIdx (ix2 p o) ((ValueIdx.contrEquiv1 dot_S1000x128_S128x128_S1000x128_1_0_0_1_n_n 128 rfl rfl).symm k) = ix2 p k :=
    funext fun ax => Fin.ext (by
      match ax with
      | ⟨0, _⟩ => exact centre_lhs0 _ _
      | ⟨1, _⟩ => exact (centre_lhs1 _ _).trans hk)
  have er : dot_S1000x128_S128x128_S1000x128_1_0_0_1_n_n.rhsIdx (ix2 p o) ((ValueIdx.contrEquiv1 dot_S1000x128_S128x128_S1000x128_1_0_0_1_n_n 128 rfl rfl).symm k) = ix2 k o :=
    funext fun ax => Fin.ext (by
      match ax with
      | ⟨0, _⟩ => exact (centre_rhs0 _ _).trans hk
      | ⟨1, _⟩ => exact centre_rhs1 _ _)
  rw [el, er]

theorem filter_lhs0 (i : S8000x128.Idx) (q : dot_S8000x32_S32x128_S8000x128_1_0_0_1_n_n.contr.Idx) : (dot_S8000x32_S32x128_S8000x128_1_0_0_1_n_n.lhsIdx i q 0).val = (i 0).val := by
  unfold DotDims.lhsIdx
  rw [dif_neg (show ¬(0 : Fin S8000x32.rank) ∈ dot_S8000x32_S32x128_S8000x128_1_0_0_1_n_n.lhsBatch by decide),
    dif_pos (show (0 : Fin S8000x32.rank) ∈ dot_S8000x32_S32x128_S8000x128_1_0_0_1_n_n.lhsNonContracting by decide)]
  rfl
theorem filter_lhs1 (i : S8000x128.Idx) (q : dot_S8000x32_S32x128_S8000x128_1_0_0_1_n_n.contr.Idx) : (dot_S8000x32_S32x128_S8000x128_1_0_0_1_n_n.lhsIdx i q 1).val = (q ⟨0, by decide⟩).val :=
  dot_S8000x32_S32x128_S8000x128_1_0_0_1_n_n.lhsIdx_val_of_single rfl i q
theorem filter_rhs0 (i : S8000x128.Idx) (q : dot_S8000x32_S32x128_S8000x128_1_0_0_1_n_n.contr.Idx) : (dot_S8000x32_S32x128_S8000x128_1_0_0_1_n_n.rhsIdx i q 0).val = (q ⟨0, by decide⟩).val :=
  dot_S8000x32_S32x128_S8000x128_1_0_0_1_n_n.rhsIdx_val_of_single rfl i q
theorem filter_rhs1 (i : S8000x128.Idx) (q : dot_S8000x32_S32x128_S8000x128_1_0_0_1_n_n.contr.Idx) : (dot_S8000x32_S32x128_S8000x128_1_0_0_1_n_n.rhsIdx i q 1).val = (i 1).val := by
  unfold DotDims.rhsIdx
  rw [dif_neg (show ¬(1 : Fin S32x128.rank) ∈ dot_S8000x32_S32x128_S8000x128_1_0_0_1_n_n.rhsBatch by decide),
    dif_pos (show (1 : Fin S32x128.rank) ∈ dot_S8000x32_S32x128_S8000x128_1_0_0_1_n_n.rhsNonContracting by decide)]
  rfl

/-- The filter table `[8000, 32] · [32, 128]` into a zero accumulator, at `(R, o)`: the sum over the 32 difference features. -/
theorem matmul_filter (a : FVec Ideal S8000x32 .f32) (w : FVec Ideal S32x128 .f32) (R : Fin 8000) (o : Fin 128) :
    matmul dot_S8000x32_S32x128_S8000x128_1_0_0_1_n_n none a w (constant S8000x128 .f32 0x00000000#32) (ix2 R o)
      = ∑ f : Fin 32, a (ix2 R f) * w (ix2 f o) := by
  refine (Ideal.matmul_constant_zero_apply dot_S8000x32_S32x128_S8000x128_1_0_0_1_n_n none a w (ix2 R o)).trans ?_
  rw [← Equiv.sum_comp (ValueIdx.contrEquiv1 dot_S8000x32_S32x128_S8000x128_1_0_0_1_n_n 32 rfl rfl).symm]
  refine Finset.sum_congr rfl fun k _ => ?_
  have hk := ValueIdx.contrEquiv1_symm_val dot_S8000x32_S32x128_S8000x128_1_0_0_1_n_n 32 rfl rfl k
  have el : dot_S8000x32_S32x128_S8000x128_1_0_0_1_n_n.lhsIdx (ix2 R o) ((ValueIdx.contrEquiv1 dot_S8000x32_S32x128_S8000x128_1_0_0_1_n_n 32 rfl rfl).symm k) = ix2 R k :=
    funext fun ax => Fin.ext (by
      match ax with
      | ⟨0, _⟩ => exact filter_lhs0 _ _
      | ⟨1, _⟩ => exact (filter_lhs1 _ _).trans hk)
  have er : dot_S8000x32_S32x128_S8000x128_1_0_0_1_n_n.rhsIdx (ix2 R o) ((ValueIdx.contrEquiv1 dot_S8000x32_S32x128_S8000x128_1_0_0_1_n_n 32 rfl rfl).symm k) = ix2 k o :=
    funext fun ax => Fin.ext (by
      match ax with
      | ⟨0, _⟩ => exact (filter_rhs0 _ _).trans hk
      | ⟨1, _⟩ => exact filter_rhs1 _ _)
  rw [el, er]

/-! ## A slab of eight neighbours cut out of a block -/

/-- Entry `(p, j, f)` of the `[1000, 8, 32]` slab at neighbour offset `off` is the difference block's entry `(p, off + j, f)`. -/
theorem ld_diff (x : Vec Ideal S1000x32x32 .f32) (off : Nat)
    (inb : ∀ a, (![0, off, 0] : Fin 3 → Nat) a + S1000x8x32.size a ≤ S1000x32x32.size a)
    (p : Fin 1000) (j : Fin 8) (f : Fin 32) (k : Fin 32) (hk : k.val = off + j.val) :
    View.ld x (Rect.unit (s := S1000x32x32) ![0, off, 0] S1000x8x32.size inb) (ix3 p j f) = x (ix3 p k f) := by
  show x _ = x _
  refine congrArg x (funext fun ax => Fin.ext ?_)
  match ax with
  | ⟨0, _⟩ => show 0 + 1 * p.val = p.val; omega
  | ⟨1, _⟩ => show off + 1 * j.val = k.val; omega
  | ⟨2, _⟩ => show 0 + 1 * f.val = f.val; omega

/-- Entry `(p, j, o)` of the `[1000, 8, 128]` slab at neighbour offset `off` is the feature block's entry `(p, off + j, o)`. -/
theorem ld_neigh (x : Vec Ideal S1000x32x128 .f32) (off : Nat)
    (inb : ∀ a, (![0, off, 0] : Fin 3 → Nat) a + S1000x8x128.size a ≤ S1000x32x128.size a)
    (p : Fin 1000) (j : Fin 8) (o : Fin 128) (k : Fin 32) (hk : k.val = off + j.val) :
    View.ld x (Rect.unit (s := S1000x32x128) ![0, off, 0] S1000x8x128.size inb) (ix3 p j o) = x (ix3 p k o) := by
  show x _ = x _
  refine congrArg x (funext fun ax => Fin.ext ?_)
  match ax with
  | ⟨0, _⟩ => show 0 + 1 * p.val = p.val; omega
  | ⟨1, _⟩ => show off + 1 * j.val = k.val; omega
  | ⟨2, _⟩ => show 0 + 1 * o.val = o.val; omega

/-! ## One chunk -/

/-- A chunk's contribution from its two slabs: re-lay, multiply by `W_γ`, re-lay back, multiply by the features, sum over the
    eight neighbours — at `(p, o)` the sum over `j` of the filter value of `(p, j)` times the feature of `(p, j)` at `o`. -/
theorem chunk_slabs (a : FVec Ideal S1000x8x32 .f32) (w : FVec Ideal S32x128 .f32) (h : FVec Ideal S1000x8x128 .f32)
    (hc1 : S1000x8x32.ShapeCasts S8000x32) (hc2 : S8000x128.ShapeCasts S1000x8x128) (hred : S1000x8x128.Reduces [1] S1000x128)
    (hφ : FKind.Formats .f32) (hacc : (0x00000000#32 : BitVec (FTy.f32).bits) = FKind.add.neutral .f32 hφ)
    (p : Fin 1000) (o : Fin 128) :
    multiReduction .add [1] S1000x128
        (mulf (shapeCast S1000x8x128 (matmul dot_S8000x32_S32x128_S8000x128_1_0_0_1_n_n none (shapeCast S8000x32 a hc1) w
          (constant S8000x128 .f32 0x00000000#32)) hc2) h) 0x00000000#32 hred hφ hacc (ix2 p o)
      = ∑ j : Fin 8, (∑ f : Fin 32, a (ix3 p j f) * w (ix2 f o)) * h (ix3 p j o) := by
  refine (Ideal.multiReduction_add_single _ _ hred hφ hacc (ix2 p o)).trans ?_
  refine Finset.sum_congr rfl fun (j : Fin 8) _ => ?_
  have hj : j.val < 8 := j.isLt
  have e : hred.lift (ix2 p o) j = ix3 p j o := funext fun ax => Fin.ext (by
    match ax with
    | ⟨0, _⟩ => rfl
    | ⟨1, _⟩ => rfl
    | ⟨2, _⟩ => rfl)
  have hR : (8 * p.val + j.val) < 8000 := by omega
  refine (congrArg _ e).trans ?_
  show shapeCast S1000x8x128 _ hc2 (ix3 p j o) * h (ix3 p j o) = _
  refine congrArg (· * h (ix3 p j o)) ?_
  refine (Cert.Layout.shapeCast_nc_abc_apply _ hc2 p j o (⟨8 * p.val + j.val, hR⟩ : Fin 8000) (by show 8 * p.val + j.val = p.val * 8 + j.val; omega)).trans ?_
  refine (matmul_filter _ w _ o).trans ?_
  refine Finset.sum_congr rfl fun f _ => congrArg (· * w (ix2 f o)) ?_
  exact Cert.Layout.shapeCast_abc_nc_apply a hc1 _ f p j (by show 8 * p.val + j.val = p.val * 8 + j.val; omega)

/-- The same from the blocks the slabs are cut from: chunk `s` (neighbour offset `8s`) contributes its eight messages. -/
theorem chunk_block (x1 : Vec Ideal S1000x32x128 .f32) (x2 : Vec Ideal S1000x32x32 .f32) (w : FVec Ideal S32x128 .f32)
    (off : Nat) (s : Fin 4) (hs : off = 8 * s.val)
    (inb2 : ∀ a, (![0, off, 0] : Fin 3 → Nat) a + S1000x8x32.size a ≤ S1000x32x32.size a)
    (inb1 : ∀ a, (![0, off, 0] : Fin 3 → Nat) a + S1000x8x128.size a ≤ S1000x32x128.size a)
    (hc1 : S1000x8x32.ShapeCasts S8000x32) (hc2 : S8000x128.ShapeCasts S1000x8x128) (hred : S1000x8x128.Reduces [1] S1000x128)
    (hφ : FKind.Formats .f32) (hacc : (0x00000000#32 : BitVec (FTy.f32).bits) = FKind.add.neutral .f32 hφ)
    (p : Fin 1000) (o : Fin 128) :
    multiReduction .add [1] S1000x128
        (mulf (shapeCast S1000x8x128 (matmul (φ₁ := .f32) dot_S8000x32_S32x128_S8000x128_1_0_0_1_n_n none
          (shapeCast S8000x32 (View.ld x2 (Rect.unit (s := S1000x32x32) ![0, off, 0] S1000x8x32.size inb2) : FVec Ideal S1000x8x32 .f32) hc1) w
          (constant S8000x128 .f32 0x00000000#32)) hc2)
          (View.ld x1 (Rect.unit (s := S1000x32x128) ![0, off, 0] S1000x8x128.size inb1) : FVec Ideal S1000x8x128 .f32)) 0x00000000#32 hred hφ hacc (ix2 p o)
      = ∑ j : Fin 8, Cert.NodeUpdate.msg (fun k f => x2 (ix3 p k f)) (fun f => w (ix2 f o)) (fun k => x1 (ix3 p k o))
          (Cert.NodeUpdate.chunk s j) := by
  refine (chunk_slabs _ w _ hc1 hc2 hred hφ hacc p o).trans ?_
  refine Finset.sum_congr rfl fun j _ => ?_
  have hk : (Cert.NodeUpdate.chunk s j).val = off + j.val := by rw [hs]; rfl
  unfold Cert.NodeUpdate.msg
  exact congrArg₂ (· * ·)
    (Finset.sum_congr rfl fun f _ => congrArg (· * w (ix2 f o)) (ld_diff x2 off inb2 p j f _ hk))
    (ld_neigh x1 off inb1 p j o _ hk)

end Cert.KernelIdeal.BlockOps

end
-- ==== Proof.BlockValue.lean ====
/-
  What the kernel's body leaves in its output block, read at one entry.

  At a grid point the body holds a block of 1000 nodes with their neighbours and the whole parameters. It forms the centre projection
  plus the bias row, then goes through the 32 neighbours in four chunks of eight, adding each chunk's summed messages onto an
  accumulator that starts at zero, adds the two and applies `x · σ(x)`. Read at node `p` of the block and channel `o` that is the node
  update of `NodeUpdate` with the messages summed chunk by chunk, hence (`NodeUpdate.preChunked_eq`) the node update itself.
-/
import proofs.«118850_j28080496181525_2_alg».proof.Proof.Gen.KernelIdeal.Frame
import proofs.«118850_j28080496181525_2_alg».proof.Proof.KernelOps

noncomputable section

namespace Cert.KernelIdeal.BlockValue

open Cert.KernelIdeal Cert.KernelIdeal.Gen Cert.KernelIdeal.BlockOps Idealize.ShloMosaic Idealize.ShloMosaic.ValueIdx

theorem hz2 : (![0, 0] : Fin 2 → Nat) = fun _ => 0 := funext fun a => by fin_cases a <;> rfl

/-- The centre projection plus the bias row, at `(p, o)`. -/
theorem centre_apply (v0 : Vec Ideal S1000x128 .f32) (v1 : Vec Ideal S128x128 .f32) (v3 : Vec Ideal S1x128 .f32)
    (p : Fin 1000) (o : Fin 128) :
    k0_pay2 v0 v1 v3 (ix2 p o) = ∑ d : Fin 128, v0 (ix2 p d) * v1 (ix2 d o) + v3 (ix2 (0 : Fin 1) o) := by
  unfold k0_pay2
  show matmul (F := Ideal) (φ₁ := .f32) (φ₂ := .f32) dot_S1000x128_S128x128_S1000x128_1_0_0_1_n_n none v0 v1 (constant S1000x128 .f32 0x00000000#32) (ix2 p o)
      + broadcastTo S1000x128 (shapeCast S1x128 v3 _) _ (ix2 p o) = _
  refine congrArg₂ (· + ·) (matmul_centre v0 v1 p o) ?_
  refine (broadcastTo_1b_ab_apply _ _ p o).trans ?_
  rw [shapeCast_self]

/-- The first two chunks onto the zero accumulator, entry by entry: the body's operations spelt out. -/
theorem pay3_apply (v8 : Vec Ideal S1000x8x32 .f32) (v10 : Vec Ideal S32x128 .f32) (v13 : Vec Ideal S1000x8x128 .f32)
    (v17 : Vec Ideal S1000x8x32 .f32) (v19 : Vec Ideal S32x128 .f32) (v22 : Vec Ideal S1000x8x128 .f32) (i : S1000x128.Idx) :
    k0_pay3 v8 v10 v13 v17 v19 v22 i
      = (Ideal.ofBits .f32 0x00000000#32
          + multiReduction (F := Ideal) .add [1] S1000x128
              (mulf (shapeCast S1000x8x128 (matmul (F := Ideal) (φ₁ := .f32) (φ₂ := .f32) dot_S8000x32_S32x128_S8000x128_1_0_0_1_n_n none
                (shapeCast S8000x32 v8 shapeCasts_S1000x8x32_S8000x32) v10 (constant S8000x128 .f32 0x00000000#32))
                shapeCasts_S8000x128_S1000x8x128) v13) 0x00000000#32 reduces_S1000x8x128_S1000x128 (.inl rfl) rfl i)
        + multiReduction (F := Ideal) .add [1] S1000x128
            (mulf (shapeCast S1000x8x128 (matmul (F := Ideal) (φ₁ := .f32) (φ₂ := .f32) dot_S8000x32_S32x128_S8000x128_1_0_0_1_n_n none
              (shapeCast S8000x32 v17 shapeCasts_S1000x8x32_S8000x32) v19 (constant S8000x128 .f32 0x00000000#32))
              shapeCasts_S8000x128_S1000x8x128) v22) 0x00000000#32 reduces_S1000x8x128_S1000x128 (.inl rfl) rfl i := rfl

/-- The last two chunks, the sum with the centre part and the activation, entry by entry: the body's operations spelt out. -/
theorem pay1_apply (v6 v25 : FVec Ideal S1000x128 .f32) (v27 : FVec Ideal S8000x32 .f32) (v28 : Vec Ideal S32x128 .f32)
    (v31 : Vec Ideal S1000x8x128 .f32) (v35 : Vec Ideal S1000x8x32 .f32) (v37 : Vec Ideal S32x128 .f32)
    (v40 : Vec Ideal S1000x8x128 .f32) (i : S1000x128.Idx) :
    k0_pay1 v6 v25 v27 v28 v31 v35 v37 v40 i
      = Cert.NodeUpdate.silu (v6 i + ((v25 i
          + multiReduction (F := Ideal) .add [1] S1000x128
              (mulf (shapeCast S1000x8x128 (matmul (F := Ideal) (φ₁ := .f32) (φ₂ := .f32) dot_S8000x32_S32x128_S8000x128_1_0_0_1_n_n none
                v27 v28 (constant S8000x128 .f32 0x00000000#32))
                shapeCasts_S8000x128_S1000x8x128) v31) 0x00000000#32 reduces_S1000x8x128_S1000x128 (.inl rfl) rfl i)
          + multiReduction (F := Ideal) .add [1] S1000x128
              (mulf (shapeCast S1000x8x128 (matmul (F := Ideal) (φ₁ := .f32) (φ₂ := .f32) dot_S8000x32_S32x128_S8000x128_1_0_0_1_n_n none
                (shapeCast S8000x32 v35 shapeCasts_S1000x8x32_S8000x32) v37 (constant S8000x128 .f32 0x00000000#32))
                shapeCasts_S8000x128_S1000x8x128) v40) 0x00000000#32 reduces_S1000x8x128_S1000x128 (.inl rfl) rfl i)) := rfl

/-- The output block after the body, at node `p` of the block and channel `o`: the node update from the block's own rows. -/
theorem out_apply (x0 : Vec Ideal S1000x128 .f32) (x1 : Vec Ideal S1000x32x128 .f32) (x2 : Vec Ideal S1000x32x32 .f32)
    (x3 : Vec Ideal S128x128 .f32) (x4 : Vec Ideal S1x128 .f32) (x5 : Vec Ideal S32x128 .f32) (p : Fin 1000) (o : Fin 128) :
    out0_6 x0 x1 x2 x3 x4 x5 (ix2 p o)
      = Cert.NodeUpdate.silu (Cert.NodeUpdate.pre (fun d => x0 (ix2 p d)) (fun d => x3 (ix2 d o)) (x4 (ix2 (0 : Fin 1) o))
          (fun k f => x2 (ix3 p k f)) (fun f => x5 (ix2 f o)) (fun k => x1 (ix3 p k o))) := by
  unfold out0_6
  rw [View.canon_unit_zero hz2, ← Cert.NodeUpdate.preChunked_eq]
  refine (pay1_apply _ _ _ _ _ _ _ _ _).trans (congrArg Cert.NodeUpdate.silu ?_)
  unfold Cert.NodeUpdate.preChunked
  have e0 : View.ld x0 r0_0 = x0 := View.ld_unit_zero hz2 _ x0
  have e3 : View.ld x3 r0_1 = x3 := View.ld_unit_zero hz2 _ x3
  have e4 : View.ld x4 r0_2 = x4 := View.ld_unit_zero hz2 _ x4
  have e5 : View.ld x5 r0_4 = x5 := View.ld_unit_zero hz2 _ x5
  rw [e0, e3, e4, e5]
  refine congrArg₂ (· + ·) (centre_apply x0 x3 x4 p o) (congrArg₂ (· + ·) (congrArg₂ (· + ·) ?_ ?_) ?_)
  · refine (pay3_apply _ _ _ _ _ _ _).trans (congrArg₂ (· + ·) (congrArg₂ (· + ·) Ideal.ofBits_zero_f32 ?_) ?_)
    · exact chunk_block x1 x2 x5 0 0 rfl _ _ _ _ _ _ _ p o
    · exact chunk_block x1 x2 x5 8 1 rfl _ _ _ _ _ _ _ p o
  · exact chunk_block x1 x2 x5 16 2 rfl _ _ _ _ _ _ _ p o
  · exact chunk_block x1 x2 x5 24 3 rfl _ _ _ _ _ _ _ p o

/-- The same at an index given by its two coordinates. -/
theorem out_at (x0 : Vec Ideal S1000x128 .f32) (x1 : Vec Ideal S1000x32x128 .f32) (x2 : Vec Ideal S1000x32x32 .f32)
    (x3 : Vec Ideal S128x128 .f32) (x4 : Vec Ideal S1x128 .f32) (x5 : Vec Ideal S32x128 .f32) (y : S1000x128.Idx)
    (p : Fin 1000) (o : Fin 128) (hy : y = ix2 p o) :
    out0_6 x0 x1 x2 x3 x4 x5 y
      = Cert.NodeUpdate.silu (Cert.NodeUpdate.pre (fun d => x0 (ix2 p d)) (fun d => x3 (ix2 d o)) (x4 (ix2 (0 : Fin 1) o))
          (fun k f => x2 (ix3 p k f)) (fun f => x5 (ix2 f o)) (fun k => x1 (ix3 p k o))) := by
  subst hy
  exact out_apply x0 x1 x2 x3 x4 x5 p o

end Cert.KernelIdeal.BlockValue

end
-- ==== Proof.ArrayValue.lean ====
/-
  From blocks to the whole array.

  The grid has 50 points; point `t` works on nodes `1000 t … 1000 t + 999`. Its centre, neighbour and difference blocks are those rows of
  the three node arrays, its parameter blocks are the whole parameters (the bias as the row `[1, 128]` the program re-lays it to before
  the launch), and it writes rows `1000 t … 1000 t + 999` of the result. So what point `t` writes back is block `t` of the layer's output
  array `NodeUpdate.out` of the six arguments (`flushed_eq`), the 50 blocks cover the result's 50000 rows (`cover`), and the result array
  ends holding `NodeUpdate.out` (`final`, `run`).
-/
import proofs.«118850_j28080496181525_2_alg».proof.Proof.Gen.KernelIdeal.Value
import proofs.«118850_j28080496181525_2_alg».proof.Proof.BlockValue
import Idealize.ShloMosaic.Lib.Pipeline.Value
import Idealize.ShloMosaic.Lib.StableHlo.Run
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The windows' block indices at every grid point: the three node arrays and the result move one block of rows per point, the
    parameters stay at their one block. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## The input blocks as rows of the arguments -/

/-- The centre block at point `t`: row `p` is node `1000 t + p`. -/
theorem centre_block (c : Dev nD) (t : Fin cfg0.N) (p : Fin 1000) (d : Fin 128) (n : Fin 50000) (hn : n.val = 1000 * t.val + p.val) :
    (iblk m c 0 t : Vec Ideal S1000x128 .f32) (ix2 p d) = (m ((c : Thread nD τ).loc main_arg0) : S50000x128.Idx → EReal) (ix2 n d) := by
  obtain ⟨h0, h1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 1000 + 1 * p.val = n.val; rw [h0, hn]; omega
  | ⟨1, _⟩ => show win0_0.index t (1 : Fin 2) * 128 + 1 * d.val = d.val; rw [h1]; omega

/-- The neighbour block at point `t`. -/
theorem neigh_block (c : Dev nD) (t : Fin cfg0.N) (p : Fin 1000) (k : Fin 32) (o : Fin 128) (n : Fin 50000)
    (hn : n.val = 1000 * t.val + p.val) :
    (iblk m c 1 t : Vec Ideal S1000x32x128 .f32) (ix3 p k o)
      = (m ((c : Thread nD τ).loc main_arg1) : S50000x32x128.Idx → EReal) (ix3 n k o) := by
  obtain ⟨-, -, h0, h1, h2, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 1000 + 1 * p.val = n.val; rw [h0, hn]; omega
  | ⟨1, _⟩ => show win0_1.index t (1 : Fin 3) * 32 + 1 * k.val = k.val; rw [h1]; omega
  | ⟨2, _⟩ => show win0_1.index t (2 : Fin 3) * 128 + 1 * o.val = o.val; rw [h2]; omega

/-- The difference block at point `t`. -/
theorem diff_block (c : Dev nD) (t : Fin cfg0.N) (p : Fin 1000) (k f : Fin 32) (n : Fin 50000)
    (hn : n.val = 1000 * t.val + p.val) :
    (iblk m c 2 t : Vec Ideal S1000x32x32 .f32) (ix3 p k f)
      = (m ((c : Thread nD τ).loc main_arg2) : S50000x32x32.Idx → EReal) (ix3 n k f) := by
  obtain ⟨-, -, -, -, -, h0, h1, h2, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 3) * 1000 + 1 * p.val = n.val; rw [h0, hn]; omega
  | ⟨1, _⟩ => show win0_2.index t (1 : Fin 3) * 32 + 1 * k.val = k.val; rw [h1]; omega
  | ⟨2, _⟩ => show win0_2.index t (2 : Fin 3) * 32 + 1 * f.val = f.val; rw [h2]; omega

/-- The block of `W_i` at every point is `W_i`. -/
theorem wi_block (c : Dev nD) (t : Fin cfg0.N) (d o : Fin 128) :
    (iblk m c 3 t : Vec Ideal S128x128 .f32) (ix2 d o) = (m ((c : Thread nD τ).loc main_arg3) : S128x128.Idx → EReal) (ix2 d o) := by
  obtain ⟨-, -, -, -, -, -, -, -, h0, h1, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 2) * 128 + 1 * d.val = d.val; rw [h0]; omega
  | ⟨1, _⟩ => show win0_3.index t (1 : Fin 2) * 128 + 1 * o.val = o.val; rw [h1]; omega

/-- Before the launch the program re-lays the bias `[128]` as the row `[1, 128]`. -/
theorem V_bias (c : Dev nD) :
    (V m c main_v0 : S1x128.Idx → EReal)
      = shapeCast S1x128 (m ((c : Thread nD τ).loc main_arg4) : S128.Idx → EReal) shapeCasts_S128_S1x128 := by
  dsimp only [Gen.V, Gen.hostOps0]
  after_results
  rfl

/-- The bias block at every point is that row: entry `(0, o)` is the bias at `o`. -/
theorem bias_block (c : Dev nD) (t : Fin cfg0.N) (o : Fin 128) :
    (iblk m c 4 t : Vec Ideal S1x128 .f32) (ix2 (0 : Fin 1) o) = (m ((c : Thread nD τ).loc main_arg4) : S128.Idx → EReal) (ix1 o) := by
  obtain ⟨-, -, -, -, -, -, -, -, -, -, h0, h1, -⟩ := idx_facts t
  unfold iblk
  rw [View.read_apply]
  show (V m c main_v0 : S1x128.Idx → EReal) _ = _
  rw [V_bias]
  refine Eq.trans (congrArg _ (funext fun a => Fin.ext ?_)) (shapeCast_a_1a_apply _ _ (0 : Fin 1) o)
  match a with
  | ⟨0, _⟩ => show win0_4.index t (0 : Fin 2) * 1 + 1 * 0 = 0; rw [h0]
  | ⟨1, _⟩ => show win0_4.index t (1 : Fin 2) * 128 + 1 * o.val = o.val; rw [h1]; omega

/-- The block of `W_γ` at every point is `W_γ`. -/
theorem wg_block (c : Dev nD) (t : Fin cfg0.N) (f : Fin 32) (o : Fin 128) :
    (iblk m c 5 t : Vec Ideal S32x128 .f32) (ix2 f o) = (m ((c : Thread nD τ).loc main_arg5) : S32x128.Idx → EReal) (ix2 f o) := by
  obtain ⟨-, -, -, -, -, -, -, -, -, -, -, -, h0, h1, -⟩ := idx_facts t
  unfold iblk
  rw [View.read_apply]
  show V m c main_arg5 _ = _
  rw [V_main_arg5]
  refine congrArg _ (funext fun a => Fin.ext ?_)
  match a with
  | ⟨0, _⟩ => show win0_5.index t (0 : Fin 2) * 32 + 1 * f.val = f.val; rw [h0]; omega
  | ⟨1, _⟩ => show win0_5.index t (1 : Fin 2) * 128 + 1 * o.val = o.val; rw [h1]; omega

/-! ## The result array -/

/-- The layer's output array from the launch contents of the six arguments. -/
abbrev G (c : Dev nD) : S50000x128.Idx → EReal :=
  Cert.NodeUpdate.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the body leaves at row `p` of point `t`'s output block is the layer's output at node `1000 t + p`. -/
theorem block_entry (c : Dev nD) (t : Fin cfg0.N) (y : S1000x128.Idx) (p : Fin 1000) (o : Fin 128) (hy : y = ix2 p o)
    (n : Fin 50000) (hn : n.val = 1000 * t.val + p.val) :
    out0_6 (iblk m c 0 t) (iblk m c 1 t) (iblk m c 2 t) (iblk m c 3 t) (iblk m c 4 t) (iblk m c 5 t) y
      = Cert.NodeUpdate.outAt (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) n o := by
  refine (Cert.KernelIdeal.BlockValue.out_at (iblk m c 0 t) (iblk m c 1 t) (iblk m c 2 t) (iblk m c 3 t) (iblk m c 4 t)
    (iblk m c 5 t) y p o hy).trans ?_
  unfold Cert.NodeUpdate.outAt
  have e0 : (fun d : Fin 128 => (iblk m c 0 t : Vec Ideal S1000x128 .f32) (ix2 p d))
      = fun d => (m ((c : Thread nD τ).loc main_arg0) : S50000x128.Idx → EReal) (ix2 n d) :=
    funext fun d => centre_block m c t p d n hn
  have e1 : (fun k : Fin 32 => (iblk m c 1 t : Vec Ideal S1000x32x128 .f32) (ix3 p k o))
      = fun k => (m ((c : Thread nD τ).loc main_arg1) : S50000x32x128.Idx → EReal) (ix3 n k o) :=
    funext fun k => neigh_block m c t p k o n hn
  have e2 : (fun (k f : Fin 32) => (iblk m c 2 t : Vec Ideal S1000x32x32 .f32) (ix3 p k f))
      = fun k f => (m ((c : Thread nD τ).loc main_arg2) : S50000x32x32.Idx → EReal) (ix3 n k f) :=
    funext fun k => funext fun f => diff_block m c t p k f n hn
  have e3 : (fun d : Fin 128 => (iblk m c 3 t : Vec Ideal S128x128 .f32) (ix2 d o))
      = fun d => (m ((c : Thread nD τ).loc main_arg3) : S128x128.Idx → EReal) (ix2 d o) :=
    funext fun d => wi_block m c t d o
  have e5 : (fun f : Fin 32 => (iblk m c 5 t : Vec Ideal S32x128 .f32) (ix2 f o))
      = fun f => (m ((c : Thread nD τ).loc main_arg5) : S32x128.Idx → EReal) (ix2 f o) :=
    funext fun f => wg_block m c t f o
  exact congrArg Cert.NodeUpdate.silu (by rw [e0, e1, e2, e3, e5, bias_block m c t o])

/-- WHAT POINT `t` WRITES BACK is block `t` of the layer's output array. -/
theorem flushed_eq (c : Dev nD) (t : Fin cfg0.N) :
    (dats m 0 c).flushed 6 t = ((cfg0.win 6).blk t).view.read (Elt Ideal) (G m c) := by
  rw [Cert.KernelIdeal.Value.flushed6]
  obtain ⟨-, -, -, -, -, -, -, -, -, -, -, -, -, -, h0, h1⟩ := idx_facts t
  have hN : cfg0.N = 50 := N_0
  have ht : t.val < 50 := by have := t.isLt; omega
  funext y
  have hy0 : (y 0).val < 1000 := (y 0).isLt
  have hy1 : (y 1).val < 128 := (y 1).isLt
  show out0_6 (iblk m c 0 t) (iblk m c 1 t) (iblk m c 2 t) (iblk m c 3 t) (iblk m c 4 t) (iblk m c 5 t) y
    = G m c (((cfg0.win 6).blk t).view.emb y)
  refine (block_entry m c t y ⟨(y 0).val, hy0⟩ ⟨(y 1).val, hy1⟩
    (funext fun a => Fin.ext (by match a with | ⟨0, _⟩ => rfl | ⟨1, _⟩ => rfl))
    ⟨1000 * t.val + (y 0).val, by omega⟩ rfl).trans ?_
  show _ = Cert.NodeUpdate.outAt _ _ _ _ _ _ ((((cfg0.win 6).blk t).view.emb y) 0) ((((cfg0.win 6).blk t).view.emb y) 1)
  refine congrArg₂ (Cert.NodeUpdate.outAt _ _ _ _ _ _) (Fin.ext ?_) (Fin.ext ?_)
  · show 1000 * t.val + (y 0).val = win0_6.index t (0 : Fin 2) * 1000 + 1 * (y 0).val
    rw [h0]; omega
  · show (y 1).val = win0_6.index t (1 : Fin 2) * 128 + 1 * (y 1).val
    rw [h1]; omega

/-- An index of the result is in point `t`'s block iff each coordinate is in the block's range on its axis. -/
theorem mem_blk (t : Fin cfg0.N) (i : S50000x128.Idx) :
    i ∈ ((cfg0.win 6).blk t).view.set ↔ ∀ a : Fin 2, win0_6.index t a * S1000x128.size a ≤ (i a).val
      ∧ (i a).val < win0_6.index t a * S1000x128.size a + S1000x128.size a := by
  show i ∈ ((View.whole main_v1).slice (win0_6.rect t)).set ↔ _
  rw [View.set_slice_whole, Rect.mem_set_unit]
  exact Iff.rfl

/-- Every row of the result lies in the block of the point its thousand names. -/
theorem cover (i : S50000x128.Idx) : ∃ t : Fin cfg0.N, (cfg0.win 6).flush t = true ∧ i ∈ ((cfg0.win 6).blk t).view.set := by
  have hN : cfg0.N = 50 := N_0
  have hi0 : (i 0).val < 50000 := (i 0).isLt
  have hi1 : (i 1).val < 128 := (i 1).isLt
  obtain ⟨t, ht⟩ : ∃ t : Fin cfg0.N, t.val = (i 0).val / 1000 := ⟨⟨(i 0).val / 1000, by rw [hN]; omega⟩, rfl⟩
  obtain ⟨-, -, -, -, -, -, -, -, -, -, -, -, -, -, h0, h1⟩ := idx_facts t
  refine ⟨t, flush0_6 t, ?_⟩
  rw [mem_blk]
  intro a
  match a with
  | ⟨0, _⟩ =>
    show win0_6.index t (0 : Fin 2) * 1000 ≤ (i 0).val ∧ (i 0).val < win0_6.index t (0 : Fin 2) * 1000 + 1000
    rw [h0, ht]; omega
  | ⟨1, _⟩ =>
    show win0_6.index t (1 : Fin 2) * 128 ≤ (i 1).val ∧ (i 1).val < win0_6.index t (1 : Fin 2) * 128 + 128
    rw [h1]; omega

/-- THE RESULT ARRAY after the run is the layer's output array. -/
theorem final (c : Dev nD) : (dats m 0 c).arrAt 6 cfg0.N = G m c :=
  (dats m 0 c).arrAt_eq_of_cover 6 (G m c) (fun t _ => flushed_eq m c t) cover

/-- The kernel's run, read: the result at the layer's output array of the arguments, the arguments unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.ArrayValue

end
-- ==== Proof.RefValue.lean ====
/-
  The reference computes the layer as one whole-array expression; read at node `n` and channel `o` it is `NodeUpdate.outAt`.

  Its centre projection is a product over the 128 input channels, the bias is broadcast along the nodes, the filter product runs over
  the 32 difference features of every neighbour, the messages are summed over the 32 neighbours onto zero, and the activation is
  spelt `x · (1 / (1 + e^(-x)))`, which on the extended reals is `x` times the logistic function by that function's definition.
-/
import proofs.«118850_j28080496181525_2_alg».proof.Proof.Gen.ReferenceIdeal.Read
import proofs.«118850_j28080496181525_2_alg».proof.Proof.NodeUpdate

noncomputable section

namespace Cert.ReferenceIdeal.RefValue

open Cert.ReferenceIdeal Cert.ReferenceIdeal.Read Idealize.ShloMosaic Idealize.ShloMosaic.ValueIdx

/-- The float `1.0` denotes the real number one. -/
theorem one_f32 : Ideal.ofBits .f32 0x3F800000#32 = 1 := IdealRules.sign_bit.ideal_onePat .f32

/-- The value before the activation, at `(n, o)`. -/
theorem pre_apply (x0 : (⟨S50000x128, .f32⟩ : BufTy).Contents (Elt Ideal)) (x1 : (⟨S50000x32x128, .f32⟩ : BufTy).Contents (Elt Ideal))
    (x2 : (⟨S50000x32x32, .f32⟩ : BufTy).Contents (Elt Ideal)) (x3 : (⟨S128x128, .f32⟩ : BufTy).Contents (Elt Ideal))
    (x4 : (⟨S128, .f32⟩ : BufTy).Contents (Elt Ideal)) (x5 : (⟨S32x128, .f32⟩ : BufTy).Contents (Elt Ideal))
    (n : Fin 50000) (o : Fin 128) :
    val_main_v7 (F := Ideal) x0 x1 x2 x3 x4 x5 (ix2 n o)
      = Cert.NodeUpdate.pre (fun d => x0 (ix2 n d)) (fun d => x3 (ix2 d o)) (x4 (ix1 o)) (fun k f => x2 (ix3 n k f))
          (fun f => x5 (ix2 f o)) (fun k => x1 (ix3 n k o)) := by
  have e1 : ∀ d : Fin 128, lidx_main_v0 (ix2 n o) d = ix2 n d := fun d => funext fun a => Fin.ext (by
    match a with | ⟨0, _⟩ => rfl | ⟨1, _⟩ => rfl)
  have e2 : ∀ d : Fin 128, ridx_main_v0 (ix2 n o) d = ix2 d o := fun d => funext fun a => Fin.ext (by
    match a with | ⟨0, _⟩ => rfl | ⟨1, _⟩ => rfl)
  have e3 : idx_main_v1 (idx_main_v2 (ix2 n o)) = ix1 o := funext fun a => Fin.ext (by
    match a with | ⟨0, _⟩ => rfl)
  have e4 : ∀ (k f : Fin 32), lidx_main_v4 (idx_main_v6 (ix2 n o) k) f = ix3 n k f := fun k f => funext fun a => Fin.ext (by
    match a with | ⟨0, _⟩ => rfl | ⟨1, _⟩ => rfl | ⟨2, _⟩ => rfl)
  have e5 : ∀ (k f : Fin 32), ridx_main_v4 (idx_main_v6 (ix2 n o) k) f = ix2 f o := fun k f => funext fun a => Fin.ext (by
    match a with | ⟨0, _⟩ => rfl | ⟨1, _⟩ => rfl)
  have e6 : ∀ k : Fin 32, idx_main_v6 (ix2 n o) k = ix3 n k o := fun k => funext fun a => Fin.ext (by
    match a with | ⟨0, _⟩ => rfl | ⟨1, _⟩ => rfl | ⟨2, _⟩ => rfl)
  rw [val_main_v7_apply, val_main_v3_apply, val_main_v0_apply, val_main_v2_apply, val_main_v1_apply, val_main_v6_apply,
    val_main_cst_apply]
  simp only [val_main_v5_apply, val_main_v4_apply]
  unfold Cert.NodeUpdate.pre Cert.NodeUpdate.msg
  show (∑ d : Fin 128, x0 (lidx_main_v0 (ix2 n o) d) * x3 (ridx_main_v0 (ix2 n o) d)) + x4 (idx_main_v1 (idx_main_v2 (ix2 n o)))
      + (Ideal.ofBits .f32 0x00000000#32 + ∑ k : Fin 32, (∑ f : Fin 32, x2 (lidx_main_v4 (idx_main_v6 (ix2 n o) k) f)
          * x5 (ridx_main_v4 (idx_main_v6 (ix2 n o) k) f)) * x1 (idx_main_v6 (ix2 n o) k)) = _
  exact congrArg₂ (· + ·)
    (congrArg₂ (· + ·) (Finset.sum_congr rfl fun d _ => congrArg₂ (· * ·) (congrArg x0 (e1 d)) (congrArg x3 (e2 d))) (congrArg x4 e3))
    (congrArg₂ (· + ·) Ideal.ofBits_zero_f32 (Finset.sum_congr rfl fun k _ => congrArg₂ (· * ·)
      (Finset.sum_congr rfl fun f _ => congrArg₂ (· * ·) (congrArg x2 (e4 k f)) (congrArg x5 (e5 k f))) (congrArg x1 (e6 k))))

/-- The reference's result array is the layer's output array. -/
theorem result_eq (x0 : (⟨S50000x128, .f32⟩ : BufTy).Contents (Elt Ideal)) (x1 : (⟨S50000x32x128, .f32⟩ : BufTy).Contents (Elt Ideal))
    (x2 : (⟨S50000x32x32, .f32⟩ : BufTy).Contents (Elt Ideal)) (x3 : (⟨S128x128, .f32⟩ : BufTy).Contents (Elt Ideal))
    (x4 : (⟨S128, .f32⟩ : BufTy).Contents (Elt Ideal)) (x5 : (⟨S32x128, .f32⟩ : BufTy).Contents (Elt Ideal)) :
    val_main_v8 (F := Ideal) x0 x1 x2 x3 x4 x5 = Cert.NodeUpdate.out x0 x1 x2 x3 x4 x5 := by
  funext i
  obtain ⟨n, o, rfl⟩ : ∃ (n : Fin 50000) (o : Fin 128), i = ix2 n o := ⟨i 0, i 1, eq_ix2 i⟩
  show _ = Cert.NodeUpdate.outAt x0 x1 x2 x3 x4 x5 n o
  rw [val_main_v8_apply, val_main_call0_v5_apply, val_main_call0_v4_apply, val_main_call0_cst_0_apply, val_main_call0_v3_apply,
    val_main_call0_v2_apply, val_main_call0_cst_apply, val_main_call0_v1_apply, val_main_call0_v0_apply, pre_apply]
  unfold Cert.NodeUpdate.outAt Cert.NodeUpdate.silu Ideal.logistic
  generalize Cert.NodeUpdate.pre (fun d => x0 (ix2 n d)) (fun d => x3 (ix2 d o)) (x4 (ix1 o)) (fun k f => x2 (ix3 n k f))
    (fun f => x5 (ix2 f o)) (fun k => x1 (ix3 n k o)) = P
  show P * Ideal.div (Ideal.ofBits .f32 0x3F800000#32) (Ideal.ofBits .f32 0x3F800000#32 + Ideal.exp (-P))
    = P * Ideal.div 1 (1 + Ideal.exp (-P))
  rw [one_f32]

end Cert.ReferenceIdeal.RefValue

end
-- ==== Proof.lean ====
/-
  A continuous-filter message-passing layer over 50000 nodes with 32 neighbours each, as one fused kernel against its array expression.

  For node `n` and output channel `o` both programs compute, on the extended reals,

      pre[n, o] = (∑_d h_center[n, d] · W_i[d, o] + b_i[o]) + ∑_k (∑_f diff[n, k, f] · W_γ[f, o]) · h_neigh[n, k, o],
      out[n, o] = pre[n, o] · σ(pre[n, o]),            σ(x) = 1 / (1 + e^(-x)).

  The kernel walks the nodes in 50 blocks of 1000 and, inside a block, sums the 32 neighbours' messages in four chunks of eight, each
  chunk through one `[8000, 32] · [32, 128]` product; the reference forms the whole `[50000, 32, 128]` filter array and sums it over
  the neighbours at once. The two differ only in how the sum over the neighbours is grouped and in a few additions of zero, so they agree
  by the commutativity and associativity of addition, which hold at the infinities too: no finiteness of the inputs is used. The
  kernel's logistic operation and the reference's spelt-out quotient are one function by definition.

  Modules: `NodeUpdate` (one node's update and the chunking law), `KernelOps` and `BlockValue` (the body's operations and its
  output block read at an entry), `ArrayValue` (the 50 blocks as one array; the kernel's run), `RefValue` (the reference's result
  read at an entry), `LibLayout` and `LibSums` (re-layings between `[a, b, c]` and `[a·b, c]`; a sum cut into consecutive blocks).
-/
import proofs.«118850_j28080496181525_2_alg».proof.Defs
import proofs.«118850_j28080496181525_2_alg».proof.Proof.Gen.Kernel
import proofs.«118850_j28080496181525_2_alg».proof.Proof.Gen.Kernel.Frame
import proofs.«118850_j28080496181525_2_alg».proof.Proof.Gen.KernelIdeal
import proofs.«118850_j28080496181525_2_alg».proof.Proof.Gen.KernelIdeal.Frame
import proofs.«118850_j28080496181525_2_alg».proof.Proof.Gen.KernelIdeal.Value
import proofs.«118850_j28080496181525_2_alg».proof.Proof.Gen.ReferenceIdeal
import proofs.«118850_j28080496181525_2_alg».proof.Proof.Gen.ReferenceIdeal.Run
import proofs.«118850_j28080496181525_2_alg».proof.Proof.Gen.ReferenceIdeal.Read
import proofs.«118850_j28080496181525_2_alg».proof.Proof.Gen.Pre_finite_inputs
import proofs.«118850_j28080496181525_2_alg».proof.Proof.ArrayValue
import proofs.«118850_j28080496181525_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the layer's output array `NodeUpdate.out` of arguments that agree. -/
theorem algebraic : Cert.algebraic_KernelIdeal_ReferenceIdeal := by
  intro m ρ m' ρ' _ hagree
  refine ⟨fun c => Cert.KernelIdeal.ArrayValue.G m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
